-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S16x128 : Shape := ⟨2, ![16, 128]⟩
abbrev S512x4096 : Shape := ⟨2, ![512, 4096]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .i1⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_cst_1 : Ref sig .tc := ⟨.hbm, 15, rfl⟩
abbrev main_call2_v0 : Ref sig .tc := ⟨.hbm, 16, rfl⟩
abbrev main_call2_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts₀]

class Facts : Prop extends Facts₀ where

variable [Facts]
-- ==== Proof.Loss.lean ====
/-
  The per-element loss, as one function on the extended reals.

  For an input entry `x` and a target entry `t`: with `δ = x − round(t)` (to nearest, ties to even) and
  `z = ⌈x⌉` where `δ ≥ 0`, `⌊x⌋` elsewhere, the loss is `max 0 (|δ| − |x − z| + ε)`, with `ε` the f32 nearest
  1e-6 where `δ ≥ 0` and `0` elsewhere. Both programs compute exactly this at every entry, with the same two
  constants, so the function is written once here, over the operations' ideal readings, and each side is shown to be it.
-/
import Idealize.ShloMosaic.PureOps.Ideal
import Idealize.ShloMosaic.PureOps.Vector

noncomputable section

namespace Cert.Loss

open Idealize.ShloMosaic

/-- The loss of one entry. -/
def loss (x t : Ideal .f32) : Ideal .f32 :=
  FloatOps.maximumf (Scalar.ofBits .f32 0x00000000#32)
    (FloatOps.addf
      (FloatOps.subf (FloatOps.absf (FloatOps.subf x (FloatOps.roundeven t)))
        (FloatOps.absf (FloatOps.subf x
          (Scalar.select (FloatOps.cmpf .oge (FloatOps.subf x (FloatOps.roundeven t)) (Scalar.ofBits .f32 0x00000000#32))
            (FloatOps.ceil x) (FloatOps.floor x)))))
      (Scalar.select (FloatOps.cmpf .oge (FloatOps.subf x (FloatOps.roundeven t)) (Scalar.ofBits .f32 0x00000000#32))
        (Scalar.ofBits .f32 0x358637BD#32) (Scalar.ofBits .f32 0x00000000#32)))

/-- The mean over the array's 2^25 entries: the host's division of a total by the f32 that is exactly 2^25 — the last
    operation of both programs, kept closed: the two sides meet at its argument. -/
def mean (total : FVec Ideal ⟨0, ![]⟩ .f32) : FVec Ideal ⟨0, ![]⟩ .f32 :=
  Host.divf (F := Ideal) total (constant (F := Ideal) ⟨0, ![]⟩ .f32 0x4C000000#32)

end Cert.Loss

end
-- ==== Proof.RefValue.lean ====
/-
  The reference's result at the ideal values: the mean, over all 2^25 entries, of the per-entry loss.

  The reference computes the loss of every entry in a chain of whole-array operations, reduces the array with the
  host's sum from a zero initial value, and divides by 2^25. At the ideal values the host's rounding, ceiling, floor
  and absolute value are the same functions the kernel applies, so the chain at an entry is the per-entry loss; the
  host's sum over both axes is the initial value plus the sum over every index, and the initial value is zero.
-/
import proofs.«135127_j88390426951926_2_alg».proof.Defs
import proofs.«135127_j88390426951926_2_alg».proof.Proof.Gen.ReferenceIdeal.Read
import proofs.«135127_j88390426951926_2_alg».proof.Proof.Loss
import Idealize.ShloMosaic.PureOps.Ideal.Laws

noncomputable section

open scoped BigOperators

namespace Cert.ReferenceIdeal.RefValue

open Idealize.ShloMosaic Cert.ReferenceIdeal Cert.ReferenceIdeal.Read Cert.Loss

/-- The reference's total is the sum over every entry of the per-entry loss. -/
theorem total_eq (x0 x1 : FVec Ideal S8192x4096 .f32) :
    val_main_v16 (F := Ideal) x0 x1 = fun _ => ∑ j : S8192x4096.Idx, loss (x0 j) (x1 j) := by
  funext i
  rw [val_main_v16_apply]
  show Ideal.ofBits .f32 0x00000000#32 + _ = _
  rw [Ideal.ofBits_zero_f32, zero_add]
  exact Finset.sum_congr rfl fun j _ => rfl

/-- The reference's result is the mean of that total. -/
theorem result_eq (x0 x1 : FVec Ideal S8192x4096 .f32) :
    val_main_v17 (F := Ideal) x0 x1 = mean (fun _ => ∑ j : S8192x4096.Idx, loss (x0 j) (x1 j)) := by
  show mean (val_main_v16 (F := Ideal) x0 x1) = _
  rw [total_eq]

end Cert.ReferenceIdeal.RefValue

end
-- ==== Proof.KernelPieces.lean ====
/-
  What one run of the body leaves in the accumulator, at its entry (0, 0), for any float values.

  The accumulator is an [8, 128] scratch buffer of which only entry (0, 0) ever receives a sum. At the first
  step of a core's loop the body stores zeros over the whole buffer and then stores, through the 1 × 1 rectangle
  at the origin, the accumulating store's value computed from the two input blocks and the zero just stored
  there. At every later step it stores that value computed from the input blocks and the entry the step before
  left. At a core's last step it then copies the whole accumulator into the output block, so the output block is
  the accumulator as that step leaves it. Each fact is read off the stores the body's run made: an index under the
  last store reads that store's value.
-/
import proofs.«135127_j88390426951926_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.Pieces

open Cert.KernelIdeal Cert.KernelIdeal.Gen Idealize.ShloMosaic.ValueIdx

variable {F : FTy → Type} [FloatOps F]

theorem zeroOffsets : (![0, 0] : Fin 2 → Nat) = fun _ => 0 := funext fun a => by fin_cases a <;> rfl

/-- Entry (0, 0) of the accumulator. -/
abbrev origin : S8x128.Idx := ix2 (0 : Fin 8) (0 : Fin 128)

/-- The 1 × 1 rectangle at the accumulator's origin, through which the sum is loaded and stored. -/
abbrev cell : Rect S8x128 := Rect.unit (s := S8x128) ![0, 0] S1x1.size inb_S8x128_S1x1_0_0

/-- Its one element is the origin. -/
theorem cell_emb (x : cell.shape.Idx) : cell.emb x = origin := by
  funext a
  apply Fin.ext
  have h0 : (x 0).val < 1 := (x 0).isLt
  have h1 : (x 1).val < 1 := (x 1).isLt
  match a with
  | ⟨0, _⟩ => rw [Rect.emb_apply]; show 0 + 1 * (x 0).val = 0; omega
  | ⟨1, _⟩ => rw [Rect.emb_apply]; show 0 + 1 * (x 1).val = 0; omega

/-- A load through it reads the origin's entry. -/
theorem ld_cell {Val : EltTy → Type} {e : EltTy} (X : S8x128.Idx → Val e) : View.ld X cell = fun _ => X origin :=
  funext fun y => congrArg X (cell_emb y)

/-- A LATER STEP (neither first nor last): the accumulator's origin holds the store's value computed from the
    input blocks and the entry the step before left. -/
theorem scratch_mid (c : Dev nD) (i : grid0.Coords) (a2 : Memref sig .tc .vmem S512x4096 .f32) (h2 : a2.IsWhole)
    (a3 : Memref sig .tc .vmem S512x4096 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec F S512x4096 .f32) (xs0 : Vec F S8x128 .f32) (z : S1x1.Idx) :
    sout0_B_0 c i a2 h2 a3 h3 a4 h4 a5 h5 hc0 hc1 x0 x1 xs0 origin = k0_pay2 x0 x1 (fun _ => xs0 origin) z := by
  unfold sout0_B_0
  unfold kernelRun0_B
  dsimp only
  sl_unfold_words
  refine (congrArg (View.read (Elt F) a5.view _) (cell_emb z).symm).trans ?_
  refine (View.read_writes_cons_emb a5.view (h5.unread xs0) cell _ [] z).trans ?_
  simp only [View.readAt_eq_ld, h2.read_unread, h3.read_unread, h5.read_unread, View.ld_unit_zero (S := S512x4096) zeroOffsets]
  exact congrArg (fun v => k0_pay2 x0 x1 v z) (ld_cell xs0)

/-- THE LAST STEP: the same. -/
theorem scratch_last (c : Dev nD) (i : grid0.Coords) (a2 : Memref sig .tc .vmem S512x4096 .f32) (h2 : a2.IsWhole)
    (a3 : Memref sig .tc .vmem S512x4096 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S512x4096 .f32) (xs0 : Vec F S8x128 .f32) (z : S1x1.Idx) :
    sout0_C_0 c i a2 h2 a3 h3 a4 h4 a5 h5 hc0 hc1 x0 x1 xs0 origin = k0_pay2 x0 x1 (fun _ => xs0 origin) z := by
  unfold sout0_C_0
  unfold kernelRun0_C
  dsimp only
  sl_unfold_words
  refine (congrArg (View.read (Elt F) a5.view _) (cell_emb z).symm).trans ?_
  refine (View.read_writes_cons_emb a5.view (h5.unread xs0) cell _ [] z).trans ?_
  simp only [View.readAt_eq_ld, h2.read_unread, h3.read_unread, h5.read_unread, View.ld_unit_zero (S := S512x4096) zeroOffsets]
  exact congrArg (fun v => k0_pay2 x0 x1 v z) (ld_cell xs0)

/-- At the last step the output block is the accumulator as that step leaves it: its one store, of the whole
    block, writes what a load of the whole accumulator read after the accumulating store. -/
theorem out_last (c : Dev nD) (i : grid0.Coords) (a2 : Memref sig .tc .vmem S512x4096 .f32) (h2 : a2.IsWhole)
    (a3 : Memref sig .tc .vmem S512x4096 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S512x4096 .f32) (xs0 : Vec F S8x128 .f32) :
    out0_C_2 c i a2 h2 a3 h3 a4 h4 a5 h5 hc0 hc1 x0 x1 xs0 = sout0_C_0 c i a2 h2 a3 h3 a4 h4 a5 h5 hc0 hc1 x0 x1 xs0 := by
  unfold out0_C_2
  rw [View.read_writes_eq_canon _ _ _ (cover0_C_2 c i a2 h2 a3 h3 a4 h4 a5 h5 hc0 hc1 x0 x1 xs0)]
  unfold sout0_C_0
  unfold kernelRun0_C
  dsimp only
  sl_unfold_words
  rw [View.canon_unit_zero zeroOffsets]
  simp only [View.readAt_eq_ld, View.ld_unit_zero (S := S8x128) zeroOffsets]

/-- THE FIRST STEP: the accumulator's origin holds the store's value computed from the input blocks and the
    zero the step has just stored there. -/
theorem scratch_first (c : Dev nD) (i : grid0.Coords) (a2 : Memref sig .tc .vmem S512x4096 .f32) (h2 : a2.IsWhole)
    (a3 : Memref sig .tc .vmem S512x4096 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec F S512x4096 .f32) (z : S1x1.Idx) :
    sout0_A_0 c i a2 h2 a3 h3 a4 h4 a5 h5 hc0 hc1 x0 x1 origin = k0_pay2 x0 x1 (fun _ => k0_pay1 (F := F) origin) z := by
  unfold sout0_A_0
  unfold kernelRun0_A
  dsimp only
  sl_unfold_words
  refine (congrArg (View.read (Elt F) VS0_0 _) (cell_emb z).symm).trans ?_
  refine (View.read_writes_cons_emb VS0_0 VS0_0.junk cell _ _ z).trans ?_
  have e : a5.view.readCov [(⟨Rect.unit ![0, 0] S8x128.size inb_S8x128_S8x128_0_0, k0_pay1 (F := F)⟩ : View.Piece (Elt F) S8x128 .f32)]
      cell.toLoadRect = fun _ => k0_pay1 (F := F) origin := by
    rw [View.readCov_eq_canon _ _ _ (fun j => ⟨_, List.mem_singleton_self _, View.mem_set_unit_zero zeroOffsets inb_S8x128_S8x128_0_0 _⟩),
      View.canon_unit_zero zeroOffsets]
    funext j
    exact congrArg (k0_pay1 (F := F)) (cell_emb j)
  simp only [View.readAt_eq_ld, h2.read_unread, h3.read_unread, View.ld_unit_zero (S := S512x4096) zeroOffsets]
  exact congrArg (fun v => k0_pay2 x0 x1 v z) e

end Cert.KernelIdeal.Pieces

end
-- ==== Proof.KernelPayload.lean ====
/-
  What the accumulating store writes, at the ideal values.

  The body computes the loss of every entry of its [512, 4096] input block, sums each row over its 4096 lanes,
  sums the 512 row totals, and adds the result to entry (0, 0) of the accumulator. At the ideal values a lane
  reduction into a zero accumulator is the plain sum over the reduced axis and the shape casts between [512],
  [512, 1], [1] and [1, 1] only rename indices, so the stored value is the old entry plus the block's total:
  the sum over the block's rows and lanes of the per-entry loss.
-/
import proofs.«135127_j88390426951926_2_alg».proof.Proof.Gen.KernelIdeal.Skeleton
import proofs.«135127_j88390426951926_2_alg».proof.Proof.Loss
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Loss

/-- Summing a [512, 4096] vector over its lanes: at row `k` the sum over the lanes of that row. -/
theorem laneSum_apply (v : FVec Ideal S512x4096 .f32) (hacc : (0x00000000#32 : BitVec 32) = 0x00000000#32) (k : Fin 512) :
    multiReduction .add [1] S512 v 0x00000000#32 reduces_S512x4096_S512 (.inl rfl) hacc (ix1 k)
      = ∑ l : Fin 4096, v (ix2 k l) := by
  refine (Ideal.multiReduction_add_single v 0x00000000#32 reduces_S512x4096_S512 (.inl rfl) hacc (ix1 k)).trans ?_
  refine Finset.sum_congr rfl fun l _ => congrArg v ?_
  funext a
  match a with
  | ⟨0, _⟩ => rfl
  | ⟨1, _⟩ => rfl

/-- Summing a [512, 1] column over its rows: the sum of its 512 entries. -/
theorem colSum_apply (w : FVec Ideal S512x1 .f32) (hacc : (0x00000000#32 : BitVec 32) = 0x00000000#32) (j : Fin 1) :
    multiReduction .add [0] S1 w 0x00000000#32 reduces_S512x1_S1 (.inl rfl) hacc (ix1 j)
      = ∑ k : Fin 512, w (ix2 k j) := by
  refine (Ideal.multiReduction_add_single w 0x00000000#32 reduces_S512x1_S1 (.inl rfl) hacc (ix1 j)).trans ?_
  refine Finset.sum_congr rfl fun k _ => congrArg w ?_
  funext a
  match a with
  | ⟨0, _⟩ => rfl
  | ⟨1, _⟩ => rfl

/-- Viewing a [512] vector as a [512, 1] column: entry (k, 0) is entry k. -/
theorem column_apply {α : Type} (v : S512.Idx → α) (k : Fin 512) (j : Fin 1) :
    shapeCast S512x1 v shapeCasts_S512_S512x1 (ix2 k j) = v (ix1 k) := by
  refine shapeCast_apply v shapeCasts_S512_S512x1 (ix2 k j) (ix1 k) ?_
  rw [Shape.rowMajor_val_one, Shape.rowMajor_val_two]
  have hj := j.isLt
  show k.val = k.val * 1 + j.val
  omega

/-- Viewing a [1] vector as [1, 1]: its one entry. -/
theorem unit_apply {α : Type} (v : S1.Idx → α) (z : S1x1.Idx) :
    shapeCast S1x1 v shapeCasts_S1_S1x1 z = v (ix1 (0 : Fin 1)) := by
  refine shapeCast_apply v shapeCasts_S1_S1x1 z (ix1 (0 : Fin 1)) ?_
  rw [Shape.rowMajor_val_one, Shape.rowMajor_val_two]
  have h0 : (z 0).val < 1 := (z 0).isLt
  have h1 : (z 1).val < 1 := (z 1).isLt
  show (0 : ℕ) = (z 0).val * 1 + (z 1).val
  omega

/-- The store's arithmetic after the per-entry values `v`: the old entry plus the sum of `v` over rows and lanes. -/
theorem total_apply (v : FVec Ideal S512x4096 .f32) (old : FVec Ideal S1x1 .f32) (z : S1x1.Idx) :
    shapeCast S1x1
        (addf old
          (shapeCast S1x1
            (multiReduction .add [0] S1
              (shapeCast S512x1 (multiReduction .add [1] S512 v 0x00000000#32 reduces_S512x4096_S512 (.inl rfl) rfl)
                shapeCasts_S512_S512x1)
              0x00000000#32 reduces_S512x1_S1 (.inl rfl) rfl)
            shapeCasts_S1_S1x1))
        shapeCasts_S1x1_S1x1 z
      = old z + ∑ k : Fin 512, ∑ l : Fin 4096, v (ix2 k l) := by
  rw [shapeCast_self]
  refine (addf_apply _ _ z).trans (congrArg (old z + ·) ?_)
  refine (unit_apply _ z).trans ?_
  refine (colSum_apply _ rfl 0).trans ?_
  refine Finset.sum_congr rfl fun k _ => ?_
  refine (column_apply _ k 0).trans ?_
  exact laneSum_apply v rfl k

/-- THE STORED VALUE: the old entry plus the block's total loss. -/
theorem stored_apply (x0 x1 : Vec Ideal S512x4096 .f32) (old : Vec Ideal S1x1 .f32) (z : S1x1.Idx) :
    k0_pay2 (F := Ideal) x0 x1 old z = old z + ∑ k : Fin 512, ∑ l : Fin 4096, loss (x0 (ix2 k l)) (x1 (ix2 k l)) :=
  total_apply (fun i => loss (x0 i) (x1 i)) old z

end Cert.KernelIdeal.Payload

end
-- ==== Proof.SumLaw.lean ====
/-
  The algebra that joins the two sides: a total over an [8192, 4096] array, taken sixteen row blocks of 512 at a
  time and accumulated in two runs of eight blocks each, is the total over every index.

  A running sum that restarts at every multiple of 8 (`runSum`) holds, at position 8q + j, the sum of the terms
  8q, …, 8q + j. So the value after position 7 plus the value after position 15 is the sum of all sixteen terms;
  and when term b is the sum over the rows 512b, …, 512b + 511 of an array's row totals, that is the sum over every
  row, hence over every index. Only the laws of a commutative monoid are used: nothing here needs the summands to
  be finite.
-/
import Mathlib.Algebra.BigOperators.Fin
import Mathlib.Algebra.BigOperators.Intervals
import Idealize.ShloMosaic.Lib.ValueIdx

open scoped BigOperators

namespace Cert.SumLaw

open Idealize.ShloMosaic Idealize.ShloMosaic.ValueIdx

variable {M : Type*} [AddCommMonoid M]

/-- The running sum of `B` that starts afresh at every multiple of 8. -/
def runSum (B : ℕ → M) : ℕ → M
  | 0 => B 0
  | n + 1 => if (n + 1) % 8 = 0 then B (n + 1) else runSum B n + B (n + 1)

/-- At a multiple of 8 the running sum is the term there. -/
theorem runSum_start (B : ℕ → M) (n : ℕ) (h : n % 8 = 0) : runSum B n = B n := by
  cases n with
  | zero => rfl
  | succ n => exact if_pos h

/-- Elsewhere it adds the term to what the position before held. -/
theorem runSum_step (B : ℕ → M) (n : ℕ) (h : ¬(n + 1) % 8 = 0) : runSum B (n + 1) = runSum B n + B (n + 1) :=
  if_neg h

/-- At position 8q + j (j < 8) the running sum is the sum of the terms 8q, …, 8q + j. -/
theorem runSum_run (B : ℕ → M) (q : ℕ) : ∀ j, j < 8 → runSum B (8 * q + j) = ∑ i ∈ Finset.range (j + 1), B (8 * q + i)
  | 0, _ => by
    rw [runSum_start B _ (by omega), Finset.sum_range_one]
  | j + 1, hj => by
    rw [show 8 * q + (j + 1) = (8 * q + j) + 1 from rfl, runSum_step B _ (by omega), runSum_run B q j (by omega),
      Finset.sum_range_succ _ (j + 1)]
    rfl

/-- The two runs of eight together are the sum of all sixteen terms. -/
theorem runSum_two_runs (B : ℕ → M) : runSum B 7 + runSum B 15 = ∑ b : Fin 16, B b.val := by
  have h0 : runSum B 7 = ∑ i ∈ Finset.range 8, B i := by
    have h := runSum_run B 0 7 (by omega)
    simpa using h
  have h1 : runSum B 15 = ∑ i ∈ Finset.range 8, B (8 + i) := by
    have h := runSum_run B 1 7 (by omega)
    simpa using h
  rw [h0, h1, Fin.sum_univ_eq_sum_range B 16]
  exact (Finset.sum_range_add B 8 8).symm

/-- Row `k` of row block `b` (the remainder keeps the index in range at every `b`; for `b < 16` it changes nothing). -/
def blockRow (b : ℕ) (k : Fin 512) : Fin 8192 := ⟨(512 * b + k.val) % 8192, Nat.mod_lt _ (by norm_num)⟩

/-- The total of row block `b` of `f`. -/
def blockSum (f : (⟨2, ![8192, 4096]⟩ : Shape).Idx → M) (b : ℕ) : M :=
  ∑ k : Fin 512, ∑ l : Fin 4096, f (ix2 (blockRow b k) l)

/-- The sixteen row blocks partition the rows: a sum over the rows is the sum over the blocks of the sums over
    each block's rows. -/
theorem sum_rows_eq (g : Fin 8192 → M) : ∑ a : Fin 8192, g a = ∑ b : Fin 16, ∑ k : Fin 512, g (blockRow b.val k) := by
  rw [← Equiv.sum_comp (finProdFinEquiv (m := 16) (n := 512)) g, Fintype.sum_prod_type]
  refine Finset.sum_congr rfl fun b _ => Finset.sum_congr rfl fun k _ => congrArg g (Fin.ext ?_)
  have hb := b.isLt
  have hk := k.isLt
  show k.val + 512 * b.val = (512 * b.val + k.val) % 8192
  omega

/-- THE LAW: the two runs' values together are the total over every index. -/
theorem two_runs_eq_total (f : (⟨2, ![8192, 4096]⟩ : Shape).Idx → M) :
    runSum (blockSum f) 7 + runSum (blockSum f) 15 = ∑ j, f j := by
  rw [runSum_two_runs, sum_idx2 f, sum_rows_eq fun a => ∑ l : Fin 4096, f (ix2 a l)]
  rfl

end Cert.SumLaw
-- ==== Proof.KernelAcc.lean ====
/-
  The accumulator along the grid, at the ideal values.

  The grid's sixteen points are, in order, the eight steps of core 0 and then the eight steps of core 1; point t
  fetches rows 512t … 512t + 511 of both arguments. A step adds to the accumulator's entry (0, 0) the total loss
  of its block, after the first step of each core has zeroed it. So after point n that entry is the running sum,
  restarted at every multiple of 8, of the blocks' totals — by induction on the point, the step's three cases
  (first, middle, last) read off the body's stores — and at a core's last step the output block holds the same.
-/
import proofs.«135127_j88390426951926_2_alg».proof.Proof.KernelPieces
import proofs.«135127_j88390426951926_2_alg».proof.Proof.KernelPayload
import proofs.«135127_j88390426951926_2_alg».proof.Proof.SumLaw

noncomputable section

open scoped BigOperators
open Idealize.ShloMosaic Idealize.ShloMosaic.TcCoe Idealize.SL.Sem

namespace Cert.KernelIdeal.Acc

open Cert.KernelIdeal Cert.KernelIdeal.Gen Cert.KernelIdeal.Pieces Cert.KernelIdeal.Payload
open Cert.Loss Cert.SumLaw Idealize.ShloMosaic.ValueIdx

variable (m : (ℓ : Loc nD τ sig) → Buf (Elt Ideal) ℓ)

/-- The loss of every entry of the two argument arrays as core `c` finds them. -/
def lossOf (c : Dev nD) : S8192x4096.Idx → EReal :=
  fun j => loss (m ((c : Thread nD τ).loc main_arg0) j) (m ((c : Thread nD τ).loc main_arg1) j)

/-- Both input windows' block at point `t` is row block `t`, all 4096 lanes — decided over the grid. -/
theorem index_facts : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Entry (k, l) of the first argument's block at point `t` is entry (512t + k, l) of the argument. -/
theorem block0_apply (c : Dev nD) (t : Fin cfg0.N) (k : Fin 512) (l : Fin 4096) :
    (iblk m c 0 t : Vec Ideal S512x4096 .f32) (ix2 k l) = m ((c : Thread nD τ).loc main_arg0) (ix2 (blockRow t.val k) l) := by
  have hN : t.val < 16 := lt_of_lt_of_eq t.isLt N_0
  have hk := k.isLt
  unfold iblk
  rw [View.read_apply]
  show V m c main_arg0 _ = m ((c : Thread nD τ).loc main_arg0) _
  unfold V
  congr 1
  funext a
  apply Fin.ext
  match a with
  | ⟨0, _⟩ =>
    show win0_0.index t 0 * 512 + 1 * k.val = (512 * t.val + k.val) % 8192
    rw [(index_facts t).1]; omega
  | ⟨1, _⟩ =>
    show win0_0.index t 1 * 4096 + 1 * l.val = l.val
    rw [(index_facts t).2.1]; omega

/-- The same for the second argument. -/
theorem block1_apply (c : Dev nD) (t : Fin cfg0.N) (k : Fin 512) (l : Fin 4096) :
    (iblk m c 1 t : Vec Ideal S512x4096 .f32) (ix2 k l) = m ((c : Thread nD τ).loc main_arg1) (ix2 (blockRow t.val k) l) := by
  have hN : t.val < 16 := lt_of_lt_of_eq t.isLt N_0
  have hk := k.isLt
  unfold iblk
  rw [View.read_apply]
  show V m c main_arg1 _ = m ((c : Thread nD τ).loc main_arg1) _
  unfold V
  congr 1
  funext a
  apply Fin.ext
  match a with
  | ⟨0, _⟩ =>
    show win0_1.index t 0 * 512 + 1 * k.val = (512 * t.val + k.val) % 8192
    rw [(index_facts t).2.2.1]; omega
  | ⟨1, _⟩ =>
    show win0_1.index t 1 * 4096 + 1 * l.val = l.val
    rw [(index_facts t).2.2.2]; omega

/-- So the total loss of the blocks at point `t` is the total of row block `t`. -/
theorem blockTotal_eq (c : Dev nD) (t : Fin cfg0.N) :
    ∑ k : Fin 512, ∑ l : Fin 4096,
        loss ((iblk m c 0 t : Vec Ideal S512x4096 .f32) (ix2 k l)) ((iblk m c 1 t : Vec Ideal S512x4096 .f32) (ix2 k l))
      = blockSum (lossOf m c) t.val :=
  Finset.sum_congr rfl fun k _ => Finset.sum_congr rfl fun l _ =>
    congrArg₂ loss (block0_apply m c t k l) (block1_apply m c t k l)

/-- The zeros the first step stores are the extended real 0. -/
theorem zeros_apply (y : S8x128.Idx) : k0_pay1 (F := Ideal) y = 0 := by
  unfold k0_pay1
  simp only [shapeCast_self]
  exact Ideal.ofBits_zero_f32

section Steps

variable (c : Dev nD) (i : grid0.Coords) (a2 : Memref sig .tc .vmem S512x4096 .f32) (h2 : a2.IsWhole)
  (a3 : Memref sig .tc .vmem S512x4096 .f32) (h3 : a3.IsWhole) (a4 : Memref sig .tc .vmem S8x128 .f32) (h4 : a4.IsWhole)
  (a5 : Memref sig .tc .vmem S8x128 .f32) (h5 : a5.IsWhole)

/-- A first step leaves the block's total at the accumulator's origin. -/
theorem step_first (hc0 : cond0_0 i) (hc1 : ¬cond0_1 i) (x0 x1 : Vec Ideal S512x4096 .f32) :
    sout0_A_0 c i a2 h2 a3 h3 a4 h4 a5 h5 hc0 hc1 x0 x1 origin
      = ∑ k : Fin 512, ∑ l : Fin 4096, loss (x0 (ix2 k l)) (x1 (ix2 k l)) := by
  refine (scratch_first c i a2 h2 a3 h3 a4 h4 a5 h5 hc0 hc1 x0 x1 (ix2 (0 : Fin 1) (0 : Fin 1))).trans ?_
  refine (stored_apply x0 x1 _ _).trans ?_
  show k0_pay1 (F := Ideal) origin + _ = _
  rw [zeros_apply, zero_add]

/-- A middle step adds the block's total to what the step before left there. -/
theorem step_mid (hc0 : ¬cond0_0 i) (hc1 : ¬cond0_1 i) (x0 x1 : Vec Ideal S512x4096 .f32) (xs0 : Vec Ideal S8x128 .f32) :
    sout0_B_0 c i a2 h2 a3 h3 a4 h4 a5 h5 hc0 hc1 x0 x1 xs0 origin
      = xs0 origin + ∑ k : Fin 512, ∑ l : Fin 4096, loss (x0 (ix2 k l)) (x1 (ix2 k l)) :=
  (scratch_mid c i a2 h2 a3 h3 a4 h4 a5 h5 hc0 hc1 x0 x1 xs0 (ix2 (0 : Fin 1) (0 : Fin 1))).trans (stored_apply x0 x1 _ _)

/-- So does a last step. -/
theorem step_last (hc0 : ¬cond0_0 i) (hc1 : cond0_1 i) (x0 x1 : Vec Ideal S512x4096 .f32) (xs0 : Vec Ideal S8x128 .f32) :
    sout0_C_0 c i a2 h2 a3 h3 a4 h4 a5 h5 hc0 hc1 x0 x1 xs0 origin
      = xs0 origin + ∑ k : Fin 512, ∑ l : Fin 4096, loss (x0 (ix2 k l)) (x1 (ix2 k l)) :=
  (scratch_last c i a2 h2 a3 h3 a4 h4 a5 h5 hc0 hc1 x0 x1 xs0 (ix2 (0 : Fin 1) (0 : Fin 1))).trans (stored_apply x0 x1 _ _)

end Steps

/-- THE ACCUMULATOR AFTER POINT `n`: at its origin, the running sum (restarted at each core's first step) of the
    row blocks' totals. -/
theorem scratch_eq (c : Dev nD) : ∀ (n : ℕ) (hn : n < cfg0.N),
    (outsAt0 m c n hn).2 origin = runSum (blockSum (lossOf m c)) n
  | 0, hn => by
    rw [show outsAt0 m c 0 hn = _ from outsAt0_A m c ⟨0, hn⟩ (Nat.zero_mod 8) (show ¬(0 : ℕ) % 8 = 7 by decide)]
    dsimp only
    refine (step_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (iblk m c 0 ⟨0, hn⟩) (iblk m c 1 ⟨0, hn⟩)).trans ?_
    exact blockTotal_eq m c ⟨0, hn⟩
  | n + 1, hn => by
    have hN : n + 1 < 16 := lt_of_lt_of_eq hn N_0
    by_cases h0 : (n + 1) % 8 = 0
    · have h1 : ¬(n + 1) % 8 = 7 := by omega
      rw [show outsAt0 m c (n + 1) hn = _ from outsAt0_A m c ⟨n + 1, hn⟩ h0 h1, runSum_start _ _ h0]
      dsimp only
      refine (step_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)).trans ?_
      exact blockTotal_eq m c ⟨n + 1, hn⟩
    · by_cases h1 : (n + 1) % 8 = 7
      · rw [show outsAt0 m c (n + 1) hn = _ from outsAt0_C m c ⟨n + 1, hn⟩ h0 h1, runSum_step _ _ h0]
        dsimp only
        refine (step_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) _).trans ?_
        exact congrArg₂ (· + ·) (scratch_eq c n (Nat.lt_of_succ_lt hn)) (blockTotal_eq m c ⟨n + 1, hn⟩)
      · rw [show outsAt0 m c (n + 1) hn = _ from outsAt0_B m c ⟨n + 1, hn⟩ h0 h1, runSum_step _ _ h0]
        dsimp only
        refine (step_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) _).trans ?_
        exact congrArg₂ (· + ·) (scratch_eq c n (Nat.lt_of_succ_lt hn)) (blockTotal_eq m c ⟨n + 1, hn⟩)

/-- At a core's last step the output block's origin holds the same running sum. -/
theorem out_eq (c : Dev nD) (t : Fin cfg0.N) (h7 : t.val % 8 = 7) :
    (outsAt0 m c t.val t.isLt).1 origin = runSum (blockSum (lossOf m c)) t.val := by
  have h0 : ¬t.val % 8 = 0 := by omega
  have e : (outsAt0 m c t.val t.isLt).1 = (outsAt0 m c t.val t.isLt).2 := by
    rw [outsAt0_C m c t h0 h7]
    dsimp only
    exact out_last c (grid0.coords t) (ms0_0 t) (hs0_0 t) (ms0_1 t) (hs0_1 t) (ms0_2 t) (hs0_2 t) scM0_0 (Memref.isWhole_whole _) _ _ (iblk m c 0 t) (iblk m c 1 t) _
  rw [e]
  exact scratch_eq m c t.val t.isLt

end Cert.KernelIdeal.Acc

end
-- ==== Proof.KernelValue.lean ====
/-
  The kernel's result at the ideal values: the mean, over all 2^25 entries, of the per-entry loss.

  The output is a [16, 128] array written back in two [8, 128] blocks, block 0 after core 0's last step (point 7)
  and block 1 after core 1's (point 15). The two blocks do not meet, so each block of the final array is what its
  point wrote back: entry (0, 0) holds the running sum after point 7 and entry (8, 0) the running sum after point
  15. The operations after the call slice out those two entries, add them — by the sum law that is the total
  over every index — and divide by 2^25.
-/
import proofs.«135127_j88390426951926_2_alg».proof.Proof.KernelAcc
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.Acc
open Cert.Loss Cert.SumLaw Idealize.ShloMosaic.ValueIdx Idealize.ShloMosaic.StableHlo

variable (m : (ℓ : Loc nD τ sig) → Buf (Elt Ideal) ℓ) (ρ : Dev nD → PrngReg)

/-- The output window's block at point `t` is block `t / 8` of the array's rows, whole: decided over the grid. -/
theorem out_facts : ∀ t : Fin cfg0.N,
    win0_2.index t 0 = t.val / 8 ∧ win0_2.index t 1 = 0 ∧ win0_2.xsize (grid0.coords t) 0 = 8 :=
  (by decide +kernel : ∀ t : Fin grid0.N,
    win0_2.index t 0 = t.val / 8 ∧ win0_2.index t 1 = 0 ∧ win0_2.xsize (grid0.coords t) 0 = 8)

/-- An index under the block at point `t` has its row among the eight rows of block `t / 8`. -/
theorem mem_block (t : Fin cfg0.N) (i : S16x128.Idx) (hi : i ∈ ((cfg0.win 2).blk t).view.set) :
    8 * (t.val / 8) ≤ (i 0).val ∧ (i 0).val < 8 * (t.val / 8) + 8 := by
  have hi' : i ∈ ((View.whole main_v0).slice (win0_2.rect t)).set := hi
  rw [View.set_slice_whole, Rect.mem_set_unit] at hi'
  have h : win0_2.index t 0 * 8 ≤ (i 0).val ∧ (i 0).val < win0_2.index t 0 * 8 + win0_2.xsize (grid0.coords t) 0 := hi' 0
  rw [(out_facts t).1, (out_facts t).2.2] at h
  omega

/-- The two blocks written back do not meet. -/
theorem blocks_disjoint : ∀ t t' : Fin cfg0.N, (cfg0.win 2).flush t = true → (cfg0.win 2).flush t' = true → t ≠ t' →
    Disjoint ((cfg0.win 2).blk t).view.set ((cfg0.win 2).blk t').view.set := by
  intro t t' hf hf' hne
  have h7 := (flush0_2 t).mp hf
  have h7' := (flush0_2 t').mp hf'
  rw [Finset.disjoint_left]
  intro i hi hi'
  have h := mem_block t i hi
  have h' := mem_block t' i hi'
  exact hne (Fin.ext (by omega))

/-- The origin of the block at point `t` sits at row 8 (t / 8), lane 0 of the array. -/
theorem emb_origin (t : Fin cfg0.N) (r : Fin 16) (hr : r.val = 8 * (t.val / 8)) :
    ((cfg0.win 2).blk t).view.emb origin = (ix2 r (0 : Fin 128) : S16x128.Idx) := by
  funext a
  apply Fin.ext
  match a with
  | ⟨0, _⟩ =>
    show win0_2.index t 0 * 8 + 1 * 0 = r.val
    rw [(out_facts t).1, hr]; omega
  | ⟨1, _⟩ =>
    show win0_2.index t 1 * 128 + 1 * 0 = 0
    rw [(out_facts t).2.1]

/-- After the run, the array's entry at the origin of the block a core's last step wrote back is that core's sum. -/
theorem arr_at (c : Dev nD) (t : Fin cfg0.N) (h7 : t.val % 8 = 7) (r : Fin 16) (hr : r.val = 8 * (t.val / 8)) :
    (dats m 0 c).arrAt 2 cfg0.N (ix2 r (0 : Fin 128)) = runSum (blockSum (lossOf m c)) t.val := by
  rw [← emb_origin t r hr]
  refine ((dats m 0 c).arrAt_emb_eq_flushed 2 blocks_disjoint t ((flush0_2 t).mpr h7) origin).trans ?_
  show (dats m 0 c).after 2 t origin = _
  rw [after0_2]
  exact out_eq m c t h7

/-- A scalar sliced out of a [16, 128] array at row `r`, lane 0 is that entry. -/
theorem pick_apply {α : Type} (A : S16x128.Idx → α) (r : Fin 16) (off : Fin 2 → Nat) (hoff : off = ![r.val, 0])
    (h : S16x128.Slices off S1x1) (i : S_.Idx) :
    shapeCast S_ (extractStridedSlice S1x1 off A h) shapeCasts_S1x1_S_ i = A (ix2 r (0 : Fin 128)) := by
  subst hoff
  refine (shapeCast_apply _ shapeCasts_S1x1_S_ i (ix2 (0 : Fin 1) (0 : Fin 1)) ?_).trans ?_
  · rw [Shape.rowMajor_val_two]
    have h1 : (S_.rowMajor i).val < S_.numel := (S_.rowMajor i).isLt
    have h2 : S_.numel = 1 := rfl
    show 0 * 1 + 0 = (S_.rowMajor i).val
    omega
  · refine extractStridedSlice_apply _ A h _ (ix2 r (0 : Fin 128)) ?_
    intro a
    match a with
    | ⟨0, _⟩ => show r.val = r.val + 0; omega
    | ⟨1, _⟩ => show 0 = 0 + 0; rfl

/-- Points 7 and 15, the two cores' last steps. -/
abbrev lastOf0 : Fin cfg0.N := ⟨7, by rw [show cfg0.N = 16 from N_0]; decide⟩
abbrev lastOf1 : Fin cfg0.N := ⟨15, by rw [show cfg0.N = 16 from N_0]; decide⟩

/-- THE RESULT: what the operations after the call leave in the result buffer is the mean of the total loss. -/
theorem tail_eq (c : Dev nD) :
    Pipeline.afterTail₀ cfgs (dats m) 0 (V0 m) [hostOps1] c main_v6 = mean (fun _ => ∑ j : S8192x4096.Idx, lossOf m c j) := by
  have hA : Pipeline.withArrays (cfgs 0).spec c (V0 m c) (fun w => (dats m 0 c).arrAt w (cfgs 0).N) (Proc.devRef .tc main_v0)
      = (dats m 0 c).arrAt 2 cfg0.N := Pipeline.withArrays_arr spec0 launch0.win.arr_inj c _ _ 2
  unfold Pipeline.afterTail₀
  show StableHlo.after hostOps1 _ (Proc.devRef .tc main_v6) = _
  after_results
  rw [hA]
  refine congrArg (fun v => Host.divf (F := Ideal) v (constant (F := Ideal) S_ .f32 0x4C000000#32)) ?_
  funext i
  show (shapeCast S_ (extractStridedSlice S1x1 ![0, 0] ((dats m 0 c).arrAt 2 cfg0.N : S16x128.Idx → EReal) slices_S16x128_S1x1_0_0) shapeCasts_S1x1_S_ i : EReal)
      + (shapeCast S_ (extractStridedSlice S1x1 ![8, 0] ((dats m 0 c).arrAt 2 cfg0.N : S16x128.Idx → EReal) slices_S16x128_S1x1_8_0) shapeCasts_S1x1_S_ i : EReal) = _
  rw [pick_apply _ (0 : Fin 16) ![0, 0] rfl, pick_apply _ (8 : Fin 16) ![8, 0] rfl,
    arr_at m c lastOf0 (by decide) (0 : Fin 16) (by decide), arr_at m c lastOf1 (by decide) (8 : Fin 16) (by decide)]
  exact two_runs_eq_total (lossOf m c)

/-- THE KERNEL'S RUN: every weakly fair execution terminates with the result buffer at the mean of the total loss
    and the two arguments unchanged. -/
theorem run : θ_run defs (onTc (τ := τ) (main (F := Ideal))) ⟨m, fun _ => 0, ρ⟩ fun r => ∀ c : Dev nD,
      r.2.mem ((c : Thread nD τ).loc main_v6) = mean (fun _ => ∑ j : S8192x4096.Idx, lossOf m c j)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate: the kernel's mean loss is the reference's.

  Both programs compute, for two f32 [8192, 4096] arrays, the mean over all 2^25 entries of the per-entry loss
  max 0 (|δ| − |x − z| + ε), δ = x − round(t), z = ⌈x⌉ where δ ≥ 0 and ⌊x⌋ elsewhere, ε = f32(1e-6) where δ ≥ 0
  and 0 elsewhere. The reference reduces the whole loss array in one sum; the kernel walks sixteen blocks of 512
  rows on a 2 × 8 grid, each core accumulating its eight blocks' totals into one entry of a scratch buffer and
  writing it out after its last step, and the two entries are added outside the call. At the ideal values — floats
  as extended reals, operations exact — the per-entry loss is the same function on both sides (the host's rounding,
  ceiling, floor and absolute value are the kernel's), and the two totals differ only in grouping and in zero
  initial values: associativity, commutativity and 0 + x = x, which hold on all extended reals, so the equality
  never uses that the inputs are finite. Both then divide by the same constant 2^25.

  The three frames: the kernel's two are the frame certificates of its runs; the reference's is its run with the
  result dropped. The idealization rewrote nothing, so what it preserves is trivial.
-/
import proofs.«135127_j88390426951926_2_alg».proof.Defs
import proofs.«135127_j88390426951926_2_alg».proof.Proof.Gen.Kernel
import proofs.«135127_j88390426951926_2_alg».proof.Proof.Gen.Kernel.Skeleton
import proofs.«135127_j88390426951926_2_alg».proof.Proof.Gen.Kernel.Launch
import proofs.«135127_j88390426951926_2_alg».proof.Proof.Gen.Kernel.Points
import proofs.«135127_j88390426951926_2_alg».proof.Proof.Gen.Kernel.Frame
import proofs.«135127_j88390426951926_2_alg».proof.Proof.Gen.KernelIdeal
import proofs.«135127_j88390426951926_2_alg».proof.Proof.Gen.KernelIdeal.Skeleton
import proofs.«135127_j88390426951926_2_alg».proof.Proof.Gen.KernelIdeal.Launch
import proofs.«135127_j88390426951926_2_alg».proof.Proof.Gen.KernelIdeal.Points
import proofs.«135127_j88390426951926_2_alg».proof.Proof.Gen.KernelIdeal.Frame
import proofs.«135127_j88390426951926_2_alg».proof.Proof.Gen.ReferenceIdeal
import proofs.«135127_j88390426951926_2_alg».proof.Proof.Gen.ReferenceIdeal.Run
import proofs.«135127_j88390426951926_2_alg».proof.Proof.Gen.ReferenceIdeal.Read
import proofs.«135127_j88390426951926_2_alg».proof.Proof.Gen.Pre_finite_inputs
import proofs.«135127_j88390426951926_2_alg».proof.Proof.RefValue
import proofs.«135127_j88390426951926_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end at the mean of the same total: the kernel's
    run leaves it in its result buffer, and the reference's result, read one operation at a time, is the mean of the
    sum over every entry of the loss of the reference's arguments, which are the kernel's. -/
theorem algebraic : Cert.algebraic_KernelIdeal_ReferenceIdeal := by
  intro m ρ m' ρ' _ hagree
  refine ⟨fun c => Cert.Loss.mean (fun _ => ∑ j : Cert.KernelIdeal.S8192x4096.Idx, Cert.KernelIdeal.Acc.lossOf m c j),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
